-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S640000 : Shape := ⟨1, ![640000]⟩
abbrev S131072 : Shape := ⟨1, ![131072]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x256 .f32) (main_arg1 : FVec F S256x256 .f32) (main_arg2 : FVec F S256 .f32) (main_arg3 : FVec F S256x128 .f32) (main_arg4 : FVec F S128 .f32) (main_arg5 : IVec S640000 32) (main_arg6 : IVec S640000 32) (main_arg7 : IVec S131072 32) (main_arg8 : IVec S131072 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_v13 main_v16
-- ==== Kernel.lean ====
abbrev S100000x256 : Shape := ⟨2, ![100000, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S640000 : Shape := ⟨1, ![640000]⟩
abbrev S131072 : Shape := ⟨1, ![131072]⟩
abbrev S_ : Shape := ⟨0, ![]⟩
abbrev S100000 : Shape := ⟨1, ![100000]⟩
abbrev S640000x1 : Shape := ⟨2, ![640000, 1]⟩
abbrev S100000x1 : Shape := ⟨2, ![100000, 1]⟩
abbrev S640000x256 : Shape := ⟨2, ![640000, 256]⟩
abbrev S20000x256 : Shape := ⟨2, ![20000, 256]⟩
abbrev S20000 : Shape := ⟨1, ![20000]⟩
abbrev S20000x1 : Shape := ⟨2, ![20000, 1]⟩
abbrev S2000x256 : Shape := ⟨2, ![2000, 256]⟩
abbrev S1x256 : Shape := ⟨2, ![1, 256]⟩
abbrev S131072x1 : Shape := ⟨2, ![131072, 1]⟩
abbrev S131072x256 : Shape := ⟨2, ![131072, 256]⟩
abbrev S4096x256 : Shape := ⟨2, ![4096, 256]⟩
abbrev S4096 : Shape := ⟨1, ![4096]⟩
abbrev S4096x1 : Shape := ⟨2, ![4096, 1]⟩
abbrev S4096x128 : Shape := ⟨2, ![4096, 128]⟩
abbrev S1024x256 : Shape := ⟨2, ![1024, 256]⟩
abbrev S1024x128 : Shape := ⟨2, ![1024, 128]⟩
abbrev S1x128 : Shape := ⟨2, ![1, 128]⟩

abbrev nBuf : Space → Nat
  | .hbm => 97
  | .vmem => 12
  | .smem => 0
  | _ => 0

abbrev bufTy : (tb : Table) → Fin (tcTables nBuf tb) → BufTy
  | .hbm, ⟨0, _⟩ => ⟨S100000x256, .f32⟩
  | .hbm, ⟨1, _⟩ => ⟨S256x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S640000, .i32⟩
  | .hbm, ⟨6, _⟩ => ⟨S640000, .i32⟩
  | .hbm, ⟨7, _⟩ => ⟨S131072, .i32⟩
  | .hbm, ⟨8, _⟩ => ⟨S131072, .i32⟩
  | .hbm, ⟨9, _⟩ => ⟨S_, .f32⟩
  | .hbm, ⟨10, _⟩ => ⟨S640000, .f32⟩
  | .hbm, ⟨11, _⟩ => ⟨S_, .f32⟩
  | .hbm, ⟨12, _⟩ => ⟨S100000, .f32⟩
  | .hbm, ⟨13, _⟩ => ⟨S640000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S100000x256, .f32⟩
  | .hbm, ⟨24, _⟩ => ⟨S100000x256, .f32⟩
  | .hbm, ⟨25, _⟩ => ⟨S_, .i32⟩
  | .hbm, ⟨26, _⟩ => ⟨S640000, .i32⟩
  | .hbm, ⟨27, _⟩ => ⟨S640000, .i1⟩
  | .hbm, ⟨28, _⟩ => ⟨S_, .i32⟩
  | .hbm, ⟨29, _⟩ => ⟨S640000, .i32⟩
  | .hbm, ⟨30, _⟩ => ⟨S640000, .i32⟩
  | .hbm, ⟨31, _⟩ => ⟨S640000, .i32⟩
  | .hbm, ⟨32, _⟩ => ⟨S640000x1, .i32⟩
  | .hbm, ⟨33, _⟩ => ⟨S640000x256, .f32⟩
  | .hbm, ⟨34, _⟩ => ⟨S_, .f32⟩
  | .hbm, ⟨35, _⟩ => ⟨S20000x256, .f32⟩
  | .hbm, ⟨36, _⟩ => ⟨S640000x1, .i32⟩
  | .hbm, ⟨37, _⟩ => ⟨S20000x256, .f32⟩
  | .hbm, ⟨38, _⟩ => ⟨S_, .f32⟩
  | .hbm, ⟨39, _⟩ => ⟨S20000, .f32⟩
  | .hbm, ⟨40, _⟩ => ⟨S640000x1, .i32⟩
  | .hbm, ⟨41, _⟩ => ⟨S20000, .f32⟩
  | .hbm, ⟨42, _⟩ => ⟨S_, .f32⟩
  | .hbm, ⟨43, _⟩ => ⟨S_, .f32⟩
  | .hbm, ⟨44, _⟩ => ⟨S20000, .f32⟩
  | .hbm, ⟨45, _⟩ => ⟨S20000, .f32⟩
  | .hbm, ⟨46, _⟩ => ⟨S_, .f32⟩
  | .hbm, ⟨47, _⟩ => ⟨S20000, .f32⟩
  | .hbm, ⟨48, _⟩ => ⟨S20000, .f32⟩
  | .hbm, ⟨49, _⟩ => ⟨S20000x1, .f32⟩
  | .hbm, ⟨50, _⟩ => ⟨S20000x256, .f32⟩
  | .hbm, ⟨51, _⟩ => ⟨S20000x256, .f32⟩
  | .hbm, ⟨52, _⟩ => ⟨S20000x256, .f32⟩
  | .hbm, ⟨53, _⟩ => ⟨S_, .f32⟩
  | .hbm, ⟨54, _⟩ => ⟨S131072, .f32⟩
  | .hbm, ⟨55, _⟩ => ⟨S_, .f32⟩
  | .hbm, ⟨56, _⟩ => ⟨S20000, .f32⟩
  | .hbm, ⟨57, _⟩ => ⟨S131072x1, .i32⟩
  | .hbm, ⟨58, _⟩ => ⟨S20000, .f32⟩
  | .hbm, ⟨59, _⟩ => ⟨S_, .f32⟩
  | .hbm, ⟨60, _⟩ => ⟨S_, .f32⟩
  | .hbm, ⟨61, _⟩ => ⟨S20000, .f32⟩
  | .hbm, ⟨62, _⟩ => ⟨S20000, .f32⟩
  | .hbm, ⟨63, _⟩ => ⟨S_, .f32⟩
  | .hbm, ⟨64, _⟩ => ⟨S20000, .f32⟩
  | .hbm, ⟨65, _⟩ => ⟨S20000, .f32⟩
  | .hbm, ⟨66, _⟩ => ⟨S20000x1, .f32⟩
  | .hbm, ⟨67, _⟩ => ⟨S20000x256, .f32⟩
  | .hbm, ⟨68, _⟩ => ⟨S20000x256, .f32⟩
  | .hbm, ⟨69, _⟩ => ⟨S_, .i32⟩
  | .hbm, ⟨70, _⟩ => ⟨S131072, .i32⟩
  | .hbm, ⟨71, _⟩ => ⟨S131072, .i1⟩
  | .hbm, ⟨72, _⟩ => ⟨S_, .i32⟩
  | .hbm, ⟨73, _⟩ => ⟨S131072, .i32⟩
  | .hbm, ⟨74, _⟩ => ⟨S131072, .i32⟩
  | .hbm, ⟨75, _⟩ => ⟨S131072, .i32⟩
  | .hbm, ⟨76, _⟩ => ⟨S131072x1, .i32⟩
  | .hbm, ⟨77, _⟩ => ⟨S131072x256, .f32⟩
  | .hbm, ⟨78, _⟩ => ⟨S_, .f32⟩
  | .hbm, ⟨79, _⟩ => ⟨S4096x256, .f32⟩
  | .hbm, ⟨80, _⟩ => ⟨S131072x1, .i32⟩
  | .hbm, ⟨81, _⟩ => ⟨S4096x256, .f32⟩
  | .hbm, ⟨82, _⟩ => ⟨S_, .f32⟩
  | .hbm, ⟨83, _⟩ => ⟨S4096, .f32⟩
  | .hbm, ⟨84, _⟩ => ⟨S131072x1, .i32⟩
  | .hbm, ⟨85, _⟩ => ⟨S4096, .f32⟩
  | .hbm, ⟨86, _⟩ => ⟨S_, .f32⟩
  | .hbm, ⟨87, _⟩ => ⟨S_, .f32⟩
  | .hbm, ⟨88, _⟩ => ⟨S4096, .f32⟩
  | .hbm, ⟨89, _⟩ => ⟨S4096, .f32⟩
  | .hbm, ⟨90, _⟩ => ⟨S_, .f32⟩
  | .hbm, ⟨91, _⟩ => ⟨S4096, .f32⟩
  | .hbm, ⟨92, _⟩ => ⟨S4096, .f32⟩
  | .hbm, ⟨93, _⟩ => ⟨S4096x1, .f32⟩
  | .hbm, ⟨94, _⟩ => ⟨S4096x256, .f32⟩
  | .hbm, ⟨95, _⟩ => ⟨S4096x256, .f32⟩
  | .hbm, ⟨96, _⟩ => ⟨S4096x128, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S256, .f32⟩
  | .local _ .vmem, ⟨4, _⟩ => ⟨S2000x256, .f32⟩
  | .local _ .vmem, ⟨5, _⟩ => ⟨S2000x256, .f32⟩
  | .local _ .vmem, ⟨6, _⟩ => ⟨S1024x256, .f32⟩
  | .local _ .vmem, ⟨7, _⟩ => ⟨S1024x256, .f32⟩
  | .local _ .vmem, ⟨8, _⟩ => ⟨S256x128, .f32⟩
  | .local _ .vmem, ⟨9, _⟩ => ⟨S128, .f32⟩
  | .local _ .vmem, ⟨10, _⟩ => ⟨S1024x128, .f32⟩
  | .local _ .vmem, ⟨11, _⟩ => ⟨S1024x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c : Ref sig .tc := ⟨.hbm, 25, rfl⟩
abbrev main_v10 : Ref sig .tc := ⟨.hbm, 26, rfl⟩
abbrev main_v11 : Ref sig .tc := ⟨.hbm, 27, rfl⟩
abbrev main_c_3 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_6 : Ref sig .tc := ⟨.hbm, 42, rfl⟩
abbrev main_call1_v0 : Ref sig .tc := ⟨.hbm, 43, rfl⟩
abbrev main_call1_v1 : Ref sig .tc := ⟨.hbm, 44, rfl⟩
abbrev main_v23 : Ref sig .tc := ⟨.hbm, 45, rfl⟩
abbrev main_cst_7 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_8 : Ref sig .tc := ⟨.hbm, 53, rfl⟩
abbrev main_v30 : Ref sig .tc := ⟨.hbm, 54, rfl⟩
abbrev main_cst_9 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_10 : Ref sig .tc := ⟨.hbm, 59, rfl⟩
abbrev main_call2_v0 : Ref sig .tc := ⟨.hbm, 60, rfl⟩
abbrev main_call2_v1 : Ref sig .tc := ⟨.hbm, 61, rfl⟩
abbrev main_v34 : Ref sig .tc := ⟨.hbm, 62, rfl⟩
abbrev main_cst_11 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_c_12 : Ref sig .tc := ⟨.hbm, 69, rfl⟩
abbrev main_v40 : Ref sig .tc := ⟨.hbm, 70, rfl⟩
abbrev main_v41 : Ref sig .tc := ⟨.hbm, 71, rfl⟩
abbrev main_c_13 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_14 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_15 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_16 : Ref sig .tc := ⟨.hbm, 86, rfl⟩
abbrev main_call3_v0 : Ref sig .tc := ⟨.hbm, 87, rfl⟩
abbrev main_call3_v1 : Ref sig .tc := ⟨.hbm, 88, rfl⟩
abbrev main_v53 : Ref sig .tc := ⟨.hbm, 89, rfl⟩
abbrev main_cst_17 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S_S20000x256 : S_.BroadcastsInDim S20000x256 (![] : Fin 0 → Fin S20000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  bcast_S_S131072 : S_.BroadcastsInDim S131072 (![] : Fin 0 → Fin S131072.rank)
  bcast_S131072_S131072x1_0 : S131072.BroadcastsInDim S131072x1 (![0] : Fin 1 → Fin S131072x1.rank)
  bcast_S_S4096x256 : S_.BroadcastsInDim S4096x256 (![] : Fin 0 → Fin S4096x256.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  scatter_S100000_S640000x1_S640000_n_0_0_1_wf : ScatterDims.WF S100000 S640000x1 S640000 [] [0] [0] 1
  gather_S100000x256_S640000x1_S640000x256_1_0_n_n_0_1_1256_wf : GatherDims.WF S100000x256 S640000x1 S640000x256 [1] [0] [] [0] [] 1 ![1, 256]
  scatter_S20000x256_S640000x1_S640000x256_1_0_0_1_wf : ScatterDims.WF S20000x256 S640000x1 S640000x256 [1] [0] [0] 1
  scatter_S20000_S640000x1_S640000_n_0_0_1_wf : ScatterDims.WF S20000 S640000x1 S640000 [] [0] [0] 1
  dot_S2000x256_S256x256_S2000x256_1_0_0_1_n_n_wf : DotDims.WF S2000x256 S256x256 S2000x256 [1] [0] [0] [1] [] []
  scatter_S20000_S131072x1_S131072_n_0_0_1_wf : ScatterDims.WF S20000 S131072x1 S131072 [] [0] [0] 1
  gather_S20000x256_S131072x1_S131072x256_1_0_n_n_0_1_1256_wf : GatherDims.WF S20000x256 S131072x1 S131072x256 [1] [0] [] [0] [] 1 ![1, 256]
  scatter_S4096x256_S131072x1_S131072x256_1_0_0_1_wf : ScatterDims.WF S4096x256 S131072x1 S131072x256 [1] [0] [0] 1
  scatter_S4096_S131072x1_S131072_n_0_0_1_wf : ScatterDims.WF S4096 S131072x1 S131072 [] [0] [0] 1
  dot_S1024x256_S256x128_S1024x128_1_0_0_1_n_n_wf : DotDims.WF S1024x256 S256x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S20000x256.size a
  hwx0_0 : ∀ i : grid0.Coords, EltTy.bits .f32 = 32 ∨ (Rect.block (s := S20000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S20000x256.size a
  hwx0_3 : ∀ i : grid0.Coords, EltTy.bits .f32 = 32 ∨ (Rect.block (s := S20000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S4096x256.size a
  hwx1_0 : ∀ i : grid1.Coords, EltTy.bits .f32 = 32 ∨ (Rect.block (s := S4096x256) S1024x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S4096x128.size a
  hwx1_3 : ∀ i : grid1.Coords, EltTy.bits .f32 = 32 ∨ (Rect.block (s := S4096x128) S1024x128.size (cc1_transform_3 i) (hinb1_3 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000x256_S640000x1_S640000x256_1_0_n_n_0_1_1256 : GatherDims S100000x256 S640000x1 S640000x256 where
  offsetDims := [1]
  collapsedSliceDims := [0]
  operandBatchingDims := []
  startIndicesBatchingDims := []
  startIndexMap := [0]
  indexVectorDim := 1
  sliceSizes := ![1, 256]
  wf := gather_S100000x256_S640000x1_S640000x256_1_0_n_n_0_1_1256_wf
def scatter_S20000x256_S640000x1_S640000x256_1_0_0_1 : ScatterDims S20000x256 S640000x1 S640000x256 where
  updateWindowDims := [1]
  insertedWindowDims := [0]
  scatterDimsToOperandDims := [0]
  indexVectorDim := 1
  wf := scatter_S20000x256_S640000x1_S640000x256_1_0_0_1_wf
def scatter_S20000_S640000x1_S640000_n_0_0_1 : ScatterDims S20000 S640000x1 S640000 where
  updateWindowDims := []
  insertedWindowDims := [0]
  scatterDimsToOperandDims := [0]
  indexVectorDim := 1
  wf := scatter_S20000_S640000x1_S640000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S20000_S131072x1_S131072_n_0_0_1 : ScatterDims S20000 S131072x1 S131072 where
  updateWindowDims := []
  insertedWindowDims := [0]
  scatterDimsToOperandDims := [0]
  indexVectorDim := 1
  wf := scatter_S20000_S131072x1_S131072_n_0_0_1_wf
def gather_S20000x256_S131072x1_S131072x256_1_0_n_n_0_1_1256 : GatherDims S20000x256 S131072x1 S131072x256 where
  offsetDims := [1]
  collapsedSliceDims := [0]
  operandBatchingDims := []
  startIndicesBatchingDims := []
  startIndexMap := [0]
  indexVectorDim := 1
  sliceSizes := ![1, 256]
  wf := gather_S20000x256_S131072x1_S131072x256_1_0_n_n_0_1_1256_wf
def scatter_S4096x256_S131072x1_S131072x256_1_0_0_1 : ScatterDims S4096x256 S131072x1 S131072x256 where
  updateWindowDims := [1]
  insertedWindowDims := [0]
  scatterDimsToOperandDims := [0]
  indexVectorDim := 1
  wf := scatter_S4096x256_S131072x1_S131072x256_1_0_0_1_wf
def scatter_S4096_S131072x1_S131072_n_0_0_1 : ScatterDims S4096 S131072x1 S131072 where
  updateWindowDims := []
  insertedWindowDims := [0]
  scatterDimsToOperandDims := [0]
  indexVectorDim := 1
  wf := scatter_S4096_S131072x1_S131072_n_0_0_1_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

abbrev win0_0 : Pipeline.Window sig grid0 :=
  Pipeline.Window.ofSpec (Memref.whole main_v28) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v58) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v59) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x256 : Shape := ⟨2, ![100000, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S640000 : Shape := ⟨1, ![640000]⟩
abbrev S131072 : Shape := ⟨1, ![131072]⟩
abbrev S_ : Shape := ⟨0, ![]⟩
abbrev S100000 : Shape := ⟨1, ![100000]⟩
abbrev S640000x1 : Shape := ⟨2, ![640000, 1]⟩
abbrev S100000x1 : Shape := ⟨2, ![100000, 1]⟩
abbrev S640000x256 : Shape := ⟨2, ![640000, 256]⟩
abbrev S20000x256 : Shape := ⟨2, ![20000, 256]⟩
abbrev S20000 : Shape := ⟨1, ![20000]⟩
abbrev S20000x1 : Shape := ⟨2, ![20000, 1]⟩
abbrev S1x256 : Shape := ⟨2, ![1, 256]⟩
abbrev S131072x1 : Shape := ⟨2, ![131072, 1]⟩
abbrev S131072x256 : Shape := ⟨2, ![131072, 256]⟩
abbrev S4096x256 : Shape := ⟨2, ![4096, 256]⟩
abbrev S4096 : Shape := ⟨1, ![4096]⟩
abbrev S4096x1 : Shape := ⟨2, ![4096, 1]⟩
abbrev S4096x128 : Shape := ⟨2, ![4096, 128]⟩
abbrev S1x128 : Shape := ⟨2, ![1, 128]⟩

abbrev nBuf : Space → Nat
  | .hbm => 106
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x256, .f32⟩
  | .hbm, ⟨2, _⟩ => ⟨S256, .f32⟩
  | .hbm, ⟨3, _⟩ => ⟨S256x128, .f32⟩
  | .hbm, ⟨4, _⟩ => ⟨S128, .f32⟩
  | .hbm, ⟨5, _⟩ => ⟨S640000, .i32⟩
  | .hbm, ⟨6, _⟩ => ⟨S640000, .i32⟩
  | .hbm, ⟨7, _⟩ => ⟨S131072, .i32⟩
  | .hbm, ⟨8, _⟩ => ⟨S131072, .i32⟩
  | .hbm, ⟨9, _⟩ => ⟨S_, .f32⟩
  | .hbm, ⟨10, _⟩ => ⟨S640000, .f32⟩
  | .hbm, ⟨11, _⟩ => ⟨S_, .f32⟩
  | .hbm, ⟨12, _⟩ => ⟨S100000, .f32⟩
  | .hbm, ⟨13, _⟩ => ⟨S640000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S100000x256, .f32⟩
  | .hbm, ⟨24, _⟩ => ⟨S100000x256, .f32⟩
  | .hbm, ⟨25, _⟩ => ⟨S_, .i32⟩
  | .hbm, ⟨26, _⟩ => ⟨S640000, .i32⟩
  | .hbm, ⟨27, _⟩ => ⟨S640000, .i1⟩
  | .hbm, ⟨28, _⟩ => ⟨S_, .i32⟩
  | .hbm, ⟨29, _⟩ => ⟨S640000, .i32⟩
  | .hbm, ⟨30, _⟩ => ⟨S640000, .i32⟩
  | .hbm, ⟨31, _⟩ => ⟨S640000, .i32⟩
  | .hbm, ⟨32, _⟩ => ⟨S640000x1, .i32⟩
  | .hbm, ⟨33, _⟩ => ⟨S640000x256, .f32⟩
  | .hbm, ⟨34, _⟩ => ⟨S_, .f32⟩
  | .hbm, ⟨35, _⟩ => ⟨S20000x256, .f32⟩
  | .hbm, ⟨36, _⟩ => ⟨S640000x1, .i32⟩
  | .hbm, ⟨37, _⟩ => ⟨S20000x256, .f32⟩
  | .hbm, ⟨38, _⟩ => ⟨S_, .f32⟩
  | .hbm, ⟨39, _⟩ => ⟨S20000, .f32⟩
  | .hbm, ⟨40, _⟩ => ⟨S640000x1, .i32⟩
  | .hbm, ⟨41, _⟩ => ⟨S20000, .f32⟩
  | .hbm, ⟨42, _⟩ => ⟨S_, .f32⟩
  | .hbm, ⟨43, _⟩ => ⟨S_, .f32⟩
  | .hbm, ⟨44, _⟩ => ⟨S20000, .f32⟩
  | .hbm, ⟨45, _⟩ => ⟨S20000, .f32⟩
  | .hbm, ⟨46, _⟩ => ⟨S_, .f32⟩
  | .hbm, ⟨47, _⟩ => ⟨S20000, .f32⟩
  | .hbm, ⟨48, _⟩ => ⟨S20000, .f32⟩
  | .hbm, ⟨49, _⟩ => ⟨S20000x1, .f32⟩
  | .hbm, ⟨50, _⟩ => ⟨S20000x256, .f32⟩
  | .hbm, ⟨51, _⟩ => ⟨S20000x256, .f32⟩
  | .hbm, ⟨52, _⟩ => ⟨S20000x256, .f32⟩
  | .hbm, ⟨53, _⟩ => ⟨S1x256, .f32⟩
  | .hbm, ⟨54, _⟩ => ⟨S20000x256, .f32⟩
  | .hbm, ⟨55, _⟩ => ⟨S20000x256, .f32⟩
  | .hbm, ⟨56, _⟩ => ⟨S_, .f32⟩
  | .hbm, ⟨57, _⟩ => ⟨S20000x256, .f32⟩
  | .hbm, ⟨58, _⟩ => ⟨S20000x256, .f32⟩
  | .hbm, ⟨59, _⟩ => ⟨S_, .f32⟩
  | .hbm, ⟨60, _⟩ => ⟨S131072, .f32⟩
  | .hbm, ⟨61, _⟩ => ⟨S_, .f32⟩
  | .hbm, ⟨62, _⟩ => ⟨S20000, .f32⟩
  | .hbm, ⟨63, _⟩ => ⟨S131072x1, .i32⟩
  | .hbm, ⟨64, _⟩ => ⟨S20000, .f32⟩
  | .hbm, ⟨65, _⟩ => ⟨S_, .f32⟩
  | .hbm, ⟨66, _⟩ => ⟨S_, .f32⟩
  | .hbm, ⟨67, _⟩ => ⟨S20000, .f32⟩
  | .hbm, ⟨68, _⟩ => ⟨S20000, .f32⟩
  | .hbm, ⟨69, _⟩ => ⟨S_, .f32⟩
  | .hbm, ⟨70, _⟩ => ⟨S20000, .f32⟩
  | .hbm, ⟨71, _⟩ => ⟨S20000, .f32⟩
  | .hbm, ⟨72, _⟩ => ⟨S20000x1, .f32⟩
  | .hbm, ⟨73, _⟩ => ⟨S20000x256, .f32⟩
  | .hbm, ⟨74, _⟩ => ⟨S20000x256, .f32⟩
  | .hbm, ⟨75, _⟩ => ⟨S_, .i32⟩
  | .hbm, ⟨76, _⟩ => ⟨S131072, .i32⟩
  | .hbm, ⟨77, _⟩ => ⟨S131072, .i1⟩
  | .hbm, ⟨78, _⟩ => ⟨S_, .i32⟩
  | .hbm, ⟨79, _⟩ => ⟨S131072, .i32⟩
  | .hbm, ⟨80, _⟩ => ⟨S131072, .i32⟩
  | .hbm, ⟨81, _⟩ => ⟨S131072, .i32⟩
  | .hbm, ⟨82, _⟩ => ⟨S131072x1, .i32⟩
  | .hbm, ⟨83, _⟩ => ⟨S131072x256, .f32⟩
  | .hbm, ⟨84, _⟩ => ⟨S_, .f32⟩
  | .hbm, ⟨85, _⟩ => ⟨S4096x256, .f32⟩
  | .hbm, ⟨86, _⟩ => ⟨S131072x1, .i32⟩
  | .hbm, ⟨87, _⟩ => ⟨S4096x256, .f32⟩
  | .hbm, ⟨88, _⟩ => ⟨S_, .f32⟩
  | .hbm, ⟨89, _⟩ => ⟨S4096, .f32⟩
  | .hbm, ⟨90, _⟩ => ⟨S131072x1, .i32⟩
  | .hbm, ⟨91, _⟩ => ⟨S4096, .f32⟩
  | .hbm, ⟨92, _⟩ => ⟨S_, .f32⟩
  | .hbm, ⟨93, _⟩ => ⟨S_, .f32⟩
  | .hbm, ⟨94, _⟩ => ⟨S4096, .f32⟩
  | .hbm, ⟨95, _⟩ => ⟨S4096, .f32⟩
  | .hbm, ⟨96, _⟩ => ⟨S_, .f32⟩
  | .hbm, ⟨97, _⟩ => ⟨S4096, .f32⟩
  | .hbm, ⟨98, _⟩ => ⟨S4096, .f32⟩
  | .hbm, ⟨99, _⟩ => ⟨S4096x1, .f32⟩
  | .hbm, ⟨100, _⟩ => ⟨S4096x256, .f32⟩
  | .hbm, ⟨101, _⟩ => ⟨S4096x256, .f32⟩
  | .hbm, ⟨102, _⟩ => ⟨S4096x128, .f32⟩
  | .hbm, ⟨103, _⟩ => ⟨S1x128, .f32⟩
  | .hbm, ⟨104, _⟩ => ⟨S4096x128, .f32⟩
  | .hbm, ⟨105, _⟩ => ⟨S4096x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c : Ref sig .tc := ⟨.hbm, 25, rfl⟩
abbrev main_v10 : Ref sig .tc := ⟨.hbm, 26, rfl⟩
abbrev main_v11 : Ref sig .tc := ⟨.hbm, 27, rfl⟩
abbrev main_c_3 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_6 : Ref sig .tc := ⟨.hbm, 42, rfl⟩
abbrev main_call1_v0 : Ref sig .tc := ⟨.hbm, 43, rfl⟩
abbrev main_call1_v1 : Ref sig .tc := ⟨.hbm, 44, rfl⟩
abbrev main_v23 : Ref sig .tc := ⟨.hbm, 45, rfl⟩
abbrev main_cst_7 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call2_cst : Ref sig .tc := ⟨.hbm, 56, rfl⟩
abbrev main_call2_v0 : Ref sig .tc := ⟨.hbm, 57, rfl⟩
abbrev main_v33 : Ref sig .tc := ⟨.hbm, 58, rfl⟩
abbrev main_cst_8 : Ref sig .tc := ⟨.hbm, 59, rfl⟩
abbrev main_v34 : Ref sig .tc := ⟨.hbm, 60, rfl⟩
abbrev main_cst_9 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_10 : Ref sig .tc := ⟨.hbm, 65, rfl⟩
abbrev main_call3_v0 : Ref sig .tc := ⟨.hbm, 66, rfl⟩
abbrev main_call3_v1 : Ref sig .tc := ⟨.hbm, 67, rfl⟩
abbrev main_v38 : Ref sig .tc := ⟨.hbm, 68, rfl⟩
abbrev main_cst_11 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_c_12 : Ref sig .tc := ⟨.hbm, 75, rfl⟩
abbrev main_v44 : Ref sig .tc := ⟨.hbm, 76, rfl⟩
abbrev main_v45 : Ref sig .tc := ⟨.hbm, 77, rfl⟩
abbrev main_c_13 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_14 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_15 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_16 : Ref sig .tc := ⟨.hbm, 92, rfl⟩
abbrev main_call4_v0 : Ref sig .tc := ⟨.hbm, 93, rfl⟩
abbrev main_call4_v1 : Ref sig .tc := ⟨.hbm, 94, rfl⟩
abbrev main_v57 : Ref sig .tc := ⟨.hbm, 95, rfl⟩
abbrev main_cst_17 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S_S20000x256 : S_.BroadcastsInDim S20000x256 (![] : Fin 0 → Fin S20000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  bcast_S_S131072 : S_.BroadcastsInDim S131072 (![] : Fin 0 → Fin S131072.rank)
  bcast_S131072_S131072x1_0 : S131072.BroadcastsInDim S131072x1 (![0] : Fin 1 → Fin S131072x1.rank)
  bcast_S_S4096x256 : S_.BroadcastsInDim S4096x256 (![] : Fin 0 → Fin S4096x256.rank)
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  scatter_S100000_S640000x1_S640000_n_0_0_1_wf : ScatterDims.WF S100000 S640000x1 S640000 [] [0] [0] 1
  gather_S100000x256_S640000x1_S640000x256_1_0_n_n_0_1_1256_wf : GatherDims.WF S100000x256 S640000x1 S640000x256 [1] [0] [] [0] [] 1 ![1, 256]
  scatter_S20000x256_S640000x1_S640000x256_1_0_0_1_wf : ScatterDims.WF S20000x256 S640000x1 S640000x256 [1] [0] [0] 1
  scatter_S20000_S640000x1_S640000_n_0_0_1_wf : ScatterDims.WF S20000 S640000x1 S640000 [] [0] [0] 1
  dot_S20000x256_S256x256_S20000x256_1_0_0_1_n_n_wf : DotDims.WF S20000x256 S256x256 S20000x256 [1] [0] [0] [1] [] []
  scatter_S20000_S131072x1_S131072_n_0_0_1_wf : ScatterDims.WF S20000 S131072x1 S131072 [] [0] [0] 1
  gather_S20000x256_S131072x1_S131072x256_1_0_n_n_0_1_1256_wf : GatherDims.WF S20000x256 S131072x1 S131072x256 [1] [0] [] [0] [] 1 ![1, 256]
  scatter_S4096x256_S131072x1_S131072x256_1_0_0_1_wf : ScatterDims.WF S4096x256 S131072x1 S131072x256 [1] [0] [0] 1
  scatter_S4096_S131072x1_S131072_n_0_0_1_wf : ScatterDims.WF S4096 S131072x1 S131072 [] [0] [0] 1
  dot_S4096x256_S256x128_S4096x128_1_0_0_1_n_n_wf : DotDims.WF S4096x256 S256x128 S4096x128 [1] [0] [0] [1] [] []

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000x256_S640000x1_S640000x256_1_0_n_n_0_1_1256 : GatherDims S100000x256 S640000x1 S640000x256 where
  offsetDims := [1]
  collapsedSliceDims := [0]
  operandBatchingDims := []
  startIndicesBatchingDims := []
  startIndexMap := [0]
  indexVectorDim := 1
  sliceSizes := ![1, 256]
  wf := gather_S100000x256_S640000x1_S640000x256_1_0_n_n_0_1_1256_wf
def scatter_S20000x256_S640000x1_S640000x256_1_0_0_1 : ScatterDims S20000x256 S640000x1 S640000x256 where
  updateWindowDims := [1]
  insertedWindowDims := [0]
  scatterDimsToOperandDims := [0]
  indexVectorDim := 1
  wf := scatter_S20000x256_S640000x1_S640000x256_1_0_0_1_wf
def scatter_S20000_S640000x1_S640000_n_0_0_1 : ScatterDims S20000 S640000x1 S640000 where
  updateWindowDims := []
  insertedWindowDims := [0]
  scatterDimsToOperandDims := [0]
  indexVectorDim := 1
  wf := scatter_S20000_S640000x1_S640000_n_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def scatter_S20000_S131072x1_S131072_n_0_0_1 : ScatterDims S20000 S131072x1 S131072 where
  updateWindowDims := []
  insertedWindowDims := [0]
  scatterDimsToOperandDims := [0]
  indexVectorDim := 1
  wf := scatter_S20000_S131072x1_S131072_n_0_0_1_wf
def gather_S20000x256_S131072x1_S131072x256_1_0_n_n_0_1_1256 : GatherDims S20000x256 S131072x1 S131072x256 where
  offsetDims := [1]
  collapsedSliceDims := [0]
  operandBatchingDims := []
  startIndicesBatchingDims := []
  startIndexMap := [0]
  indexVectorDim := 1
  sliceSizes := ![1, 256]
  wf := gather_S20000x256_S131072x1_S131072x256_1_0_n_n_0_1_1256_wf
def scatter_S4096x256_S131072x1_S131072x256_1_0_0_1 : ScatterDims S4096x256 S131072x1 S131072x256 where
  updateWindowDims := [1]
  insertedWindowDims := [0]
  scatterDimsToOperandDims := [0]
  indexVectorDim := 1
  wf := scatter_S4096x256_S131072x1_S131072x256_1_0_0_1_wf
def scatter_S4096_S131072x1_S131072_n_0_0_1 : ScatterDims S4096 S131072x1 S131072 where
  updateWindowDims := []
  insertedWindowDims := [0]
  scatterDimsToOperandDims := [0]
  indexVectorDim := 1
  wf := scatter_S4096_S131072x1_S131072_n_0_0_1_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

class Facts : Prop extends Facts₀ where

variable [Facts]
-- ==== Proof.KernelRun.lean ====
/-
  The idealized kernel's run with its result array named.

  The program is a line of host operations, a first pipelined dense step, a second line of host operations and a second
  pipelined dense step.  Its buffers' contents are followed boundary by boundary from the launch memory: a host line
  rewrites the buffers it computes, a pipelined step leaves in its output array what its grid points wrote back and
  every other buffer as it found it.  The run below is the launch of these segments read at the last boundary: every weakly
  fair execution terminates, the result array holds the last boundary's contents of its buffer, and the argument
  arrays are as launched.
-/
import proofs.«137935_j88665304858771_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution terminates; the result array ends at the last boundary's contents of its buffer and the
    argument arrays as launched. -/
theorem run_named : θ_run defs (onTc (τ := τ) (main (F := F))) ⟨m, fun _ => 0, ρ⟩ (fun r => ∀ c : Dev nD,
      r.2.mem ((c.tc : Thread nD τ).loc main_v59) = W12 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v59 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c)⟩)

end Cert.KernelIdeal.Named

end
-- ==== Proof.LibDense.lean ====
/-
  Dense layers on the extended reals, over rank-2 arrays of any extents.

  `mm A B` is the matrix product, `(A B)(p, q) = ∑ k, A(p, k) · B(k, q)`; `act A S b` is the rectified affine layer
  `max (A S + b, 0)` with the bias `b` a one-row array added to every row; `row b` is a vector laid out as that one row.
  A dot product whose dimension numbers contract the left operand's columns with the right operand's rows, with no batch
  axis, read at an output index `(p, q)` sums over the contraction index; that index set is in bijection with the
  contracted extent, so the sum is `mm` at `(p, q)` — for the vector unit's matmul into a zero accumulator and for the
  host's dot product alike. The remaining lemmas read the layout operations that carry a bias (a vector cast or broadcast
  to one row, a row broadcast to all rows, a scalar zero broadcast everywhere) at an index.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- A rank-2 array of extended reals. -/
abbrev Mat (a b : ℕ) : Type := (⟨2, ![a, b]⟩ : Shape).Idx → EReal
/-- A rank-1 array of extended reals. -/
abbrev Row (a : ℕ) : Type := (⟨1, ![a]⟩ : Shape).Idx → EReal

/-- The first coordinate of a rank-2 index, typed by the extent itself. -/
abbrev c0 {a b : ℕ} (i : (⟨2, ![a, b]⟩ : Shape).Idx) : Fin a := ⟨(i 0).val, idx2_lt0 i⟩
/-- The second coordinate of a rank-2 index, typed by the extent itself. -/
abbrev c1 {a b : ℕ} (i : (⟨2, ![a, b]⟩ : Shape).Idx) : Fin b := ⟨(i 1).val, idx2_lt1 i⟩

/-- The matrix product on the extended reals. -/
def mm {M K N : ℕ} (A : Mat M K) (B : Mat K N) : Mat M N :=
  fun i => ∑ k : Fin K, A (ix2 (c0 i) k) * B (ix2 k (c1 i))

theorem mm_apply {M K N : ℕ} (A : Mat M K) (B : Mat K N) (p : Fin M) (q : Fin N) :
    mm A B (ix2 p q) = ∑ k : Fin K, A (ix2 p k) * B (ix2 k q) := rfl

/-- The rectified affine layer `max (A S + b, 0)`, the one-row bias `b` added to every row. -/
def act {M K N : ℕ} (A : Mat M K) (S : Mat K N) (b : Mat 1 N) : Mat M N :=
  fun i => max (mm A S i + b (ix2 (0 : Fin 1) (c1 i))) 0

theorem act_apply {M K N : ℕ} (A : Mat M K) (S : Mat K N) (b : Mat 1 N) (p : Fin M) (q : Fin N) :
    act A S b (ix2 p q) = max ((∑ k : Fin K, A (ix2 p k) * S (ix2 k q)) + b (ix2 (0 : Fin 1) q)) 0 := rfl

/-- A vector laid out as a one-row array. -/
def row {N : ℕ} (b : Row N) : Mat 1 N := fun i => b (ix1 (c1 i))

theorem row_apply {N : ℕ} (b : Row N) (u : Fin 1) (q : Fin N) : row b (ix2 u q) = b (ix1 q) := rfl

/-- A plain product's contraction sum at `(p, q)` is the sum over the contracted extent of `l(p, k) · r(k, q)`. -/
theorem plain_sum {M K N : ℕ} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : Mat M K) (r : Mat K N) (p : Fin M) (q : Fin N) :
    ∑ k : D.contr.Idx, l (D.lhsIdx (ix2 p q) k) * r (D.rhsIdx (ix2 p q) k) = ∑ k : Fin K, l (ix2 p k) * r (ix2 k q) := by
  obtain ⟨lc, rc, ln, rn, lb, rb, wf⟩ := D
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have hlc : D.lhsContracting = [1] := by subst hD; rfl
  have hrc : D.rhsContracting = [0] := by subst hD; rfl
  have el : D.lhsIdx (ix2 p q) ((contrEquiv1 D K hr hs).symm k) = ix2 p k := funext fun a => Fin.ext (by
    match a with
    | ⟨0, _⟩ =>
      subst hD
      rfl
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ =>
      subst hD
      rfl)
  rw [el, er]

/-- The host's plain dot product is the matrix product. -/
theorem hostDot_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    Host.dotGeneral (F := Ideal) D prec l r = mm l r := by
  funext i
  obtain ⟨p, q, rfl⟩ : ∃ (p : Fin M) (q : Fin N), i = ix2 p q := ⟨i 0, i 1, eq_ix2 i⟩
  exact (Ideal.dotGeneral_apply D prec .single l r (ix2 p q)).trans (plain_sum D h1 h2 h3 h4 h5 h6 l r p q)

/-- The vector unit's plain matmul into a zero accumulator is the matrix product. -/
theorem matmul_zero_eq_mm {M K N : ℕ} {φ₁ φ₂ : FTy} (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (prec : Option ContractPrecision) (l : FVec Ideal ⟨2, ![M, K]⟩ φ₁) (r : FVec Ideal ⟨2, ![K, N]⟩ φ₂) :
    matmul (F := Ideal) D prec l r (constant ⟨2, ![M, N]⟩ .f32 0x00000000#32) = mm l r := by
  funext i
  obtain ⟨p, q, rfl⟩ : ∃ (p : Fin M) (q : Fin N), i = ix2 p q := ⟨i 0, i 1, eq_ix2 i⟩
  exact (Ideal.matmul_constant_zero_apply D prec l r (ix2 p q)).trans (plain_sum D h1 h2 h3 h4 h5 h6 l r p q)

/-- A one-row bias added to every row, then rectified. -/
def reluBias {M N : ℕ} (X : Mat M N) (b : Mat 1 N) : Mat M N := fun i => max (X i + b (ix2 (0 : Fin 1) (c1 i))) 0

theorem act_eq {M K N : ℕ} (A : Mat M K) (S : Mat K N) (b : Mat 1 N) : act A S b = reluBias (mm A S) b := rfl

/-- The vector unit's form: the row broadcast to every row, added, and the maximum with a zero splat. -/
theorem vecReluBias {M N : ℕ} (X : FVec Ideal ⟨2, ![M, N]⟩ .f32) (b : FVec Ideal ⟨2, ![1, N]⟩ .f32)
    (h : (⟨2, ![1, N]⟩ : Shape).Broadcasts ⟨2, ![M, N]⟩) :
    maximumf (addf X (broadcastTo ⟨2, ![M, N]⟩ b h)) (broadcast ⟨2, ![M, N]⟩ (Scalar.ofBits (F := Ideal) .f32 0x00000000#32))
      = reluBias X b := by
  funext i
  obtain ⟨p, q, rfl⟩ : ∃ (p : Fin M) (q : Fin N), i = ix2 p q := ⟨i 0, i 1, eq_ix2 i⟩
  show max (X (ix2 p q) + broadcastTo ⟨2, ![M, N]⟩ b h (ix2 p q)) (Ideal.ofBits .f32 0x00000000#32) = _
  rw [broadcastTo_1b_ab_apply, Ideal.ofBits_zero_f32]
  rfl

/-- The host's form: the vector broadcast to one row, that row to every row, added, and the maximum with a broadcast
    scalar zero. -/
theorem hostReluBias {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf X (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluBias X (row b) := by
  funext i
  obtain ⟨p, q, rfl⟩ : ∃ (p : Fin M) (q : Fin N), i = ix2 p q := ⟨i 0, i 1, eq_ix2 i⟩
  show max (X (ix2 p q) + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl),
    broadcastInDim_apply ![] h0 _ (ix2 p q) ix0 (fun a => a.elim0)]
  show max (X (ix2 p q) + b (ix1 q)) (Ideal.ofBits .f32 0x00000000#32) = _
  rw [Ideal.ofBits_zero_f32]
  rfl

/-- A vector cast to one row is that row. -/
theorem shapeCast_row {N : ℕ} (b : Row N) (h : (⟨1, ![N]⟩ : Shape).ShapeCasts ⟨2, ![1, N]⟩) :
    shapeCast ⟨2, ![1, N]⟩ b h = row b := by
  funext i
  obtain ⟨u, q, rfl⟩ : ∃ (u : Fin 1) (q : Fin N), i = ix2 u q := ⟨i 0, i 1, eq_ix2 i⟩
  exact shapeCast_a_1a_apply b h u q

/-- Rows of the layer's output depend on the same rows of the left operand only. -/
theorem mm_act_rows {M M' K N P : ℕ} (A : Mat M K) (A' : Mat M' K) (S : Mat K N) (b : Mat 1 N) (W : Mat N P)
    (p : Fin M) (p' : Fin M') (hA : ∀ k, A' (ix2 p' k) = A (ix2 p k)) (q : Fin P) :
    mm (act A' S b) W (ix2 p' q) = mm (act A S b) W (ix2 p q) := by
  simp only [mm_apply, act_apply, hA]

theorem act_rows {M M' K N : ℕ} (A : Mat M K) (A' : Mat M' K) (S : Mat K N) (b : Mat 1 N)
    (p : Fin M) (p' : Fin M') (hA : ∀ k, A' (ix2 p' k) = A (ix2 p k)) (q : Fin N) :
    act A' S b (ix2 p' q) = act A S b (ix2 p q) := by
  simp only [act_apply, hA]

theorem mm_rows {M M' K N : ℕ} (A : Mat M K) (A' : Mat M' K) (B : Mat K N)
    (p : Fin M) (p' : Fin M') (hA : ∀ k, A' (ix2 p' k) = A (ix2 p k)) (q : Fin N) :
    mm A' B (ix2 p' q) = mm A B (ix2 p q) := by
  simp only [mm_apply, hA]

end Cert.Dense

end
-- ==== Proof.LibBiasRow.lean ====
/-
  A one-row bias added to every row of a rank-2 array, on the extended reals, at any extents.

  `addRow X b` is `X(p, q) + b(0, q)`.  The vector unit spells it as the row broadcast along the rows and added; the
  host as the vector broadcast to one row, that row broadcast to every row, and added.  Both are `addRow`, the host's
  over the vector laid out as a row (`Cert.Dense.row`).  The entry at `(p, q)` depends on the entry of `X` there and
  on entry `q` of the bias only (`addRow_at`; `reluBias_at` for the rectified layer, `mm_at` for the matrix product, whose
  entry depends on one row of the left operand), which is what reading a block of rows against the whole array needs.
-/
import proofs.«137935_j88665304858771_1_alg».proof.Proof.LibDense

noncomputable section

namespace Cert.BiasRow

open Idealize.ShloMosaic Idealize.ShloMosaic.ValueIdx Cert.Dense

/-- A one-row array added to every row. -/
def addRow {M N : ℕ} (X : Mat M N) (b : Mat 1 N) : Mat M N := fun i => X i + b (ix2 (0 : Fin 1) (c1 i))

theorem addRow_apply {M N : ℕ} (X : Mat M N) (b : Mat 1 N) (p : Fin M) (q : Fin N) :
    addRow X b (ix2 p q) = X (ix2 p q) + b (ix2 (0 : Fin 1) q) := rfl

/-- The vector unit's form: the row broadcast to every row, added. -/
theorem vecAddRow {M N : ℕ} (X : FVec Ideal ⟨2, ![M, N]⟩ .f32) (b : FVec Ideal ⟨2, ![1, N]⟩ .f32)
    (h : (⟨2, ![1, N]⟩ : Shape).Broadcasts ⟨2, ![M, N]⟩) :
    addf X (broadcastTo ⟨2, ![M, N]⟩ b h) = addRow X b := by
  funext i
  obtain ⟨p, q, rfl⟩ : ∃ (p : Fin M) (q : Fin N), i = ix2 p q := ⟨i 0, i 1, eq_ix2 i⟩
  show X (ix2 p q) + broadcastTo ⟨2, ![M, N]⟩ b h (ix2 p q) = _
  rw [broadcastTo_1b_ab_apply]
  rfl

/-- The host's form: the vector broadcast to one row, that row to every row, added. -/
theorem hostAddRow {M N : ℕ} (X : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf X (broadcastInDim ⟨2, ![M, N]⟩ ![0, 1] h2 (broadcastInDim ⟨2, ![1, N]⟩ ![1] h1 b)) = addRow X (row b) := by
  funext i
  obtain ⟨p, q, rfl⟩ : ∃ (p : Fin M) (q : Fin N), i = ix2 p q := ⟨i 0, i 1, eq_ix2 i⟩
  show X (ix2 p q) + broadcastInDim ⟨2, ![M, N]⟩ ![0, 1] h2 (broadcastInDim ⟨2, ![1, N]⟩ ![1] h1 b) (ix2 p q) = _
  rw [broadcastInDim_apply ![0, 1] h2 _ (ix2 p q) (ix2 (0 : Fin 1) q) (fun a => by
        match a with
        | ⟨0, _⟩ => rfl
        | ⟨1, _⟩ =>
          show q.val = if N = 1 then 0 else q.val
          split
          · have := q.isLt; omega
          · rfl),
    broadcastInDim_apply ![1] h1 b (ix2 (0 : Fin 1) q) (ix1 q) (fun a => by
        match a with
        | ⟨0, _⟩ =>
          show q.val = if N = 1 then 0 else q.val
          split
          · have := q.isLt; omega
          · rfl)]
  rfl

/-- The biased array at an index depends on the entry there and on the bias of its column. -/
theorem addRow_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    addRow X' b' j = addRow X b i := by
  unfold addRow; rw [hX, hb]

/-- The rectified bias layer at an index depends on the entry there and on the bias of its column. -/
theorem reluBias_at {M M' N N' : ℕ} (X : Mat M N) (b : Mat 1 N) (X' : Mat M' N') (b' : Mat 1 N')
    (j : (⟨2, ![M', N']⟩ : Shape).Idx) (i : (⟨2, ![M, N]⟩ : Shape).Idx)
    (hX : X' j = X i) (hb : b' (ix2 (0 : Fin 1) (c1 j)) = b (ix2 (0 : Fin 1) (c1 i))) :
    reluBias X' b' j = reluBias X b i := by
  unfold reluBias; rw [hX, hb]

/-- The matrix product at an index depends on one row of the left operand and one column of the right one. -/
theorem mm_at {M M' K N N' : ℕ} (A : Mat M K) (B : Mat K N) (A' : Mat M' K) (B' : Mat K N')
    (j : (⟨2, ![M', N']⟩ : Shape).Idx) (i : (⟨2, ![M, N]⟩ : Shape).Idx)
    (hA : ∀ k : Fin K, A' (ix2 (c0 j) k) = A (ix2 (c0 i) k))
    (hB : ∀ k : Fin K, B' (ix2 k (c1 j)) = B (ix2 k (c1 i))) : mm A' B' j = mm A B i :=
  Finset.sum_congr rfl fun k _ => by rw [hA k, hB k]

end Cert.BiasRow

end
-- ==== Proof.Spec.lean ====
/-
  Two graph-convolution layers, as whole-array functions on the extended reals.

  Each layer first aggregates: the out-degree of every source node is counted by an accumulating scatter of ones, clipped
  below at one and raised to the power -1/2; the features are scaled row by row with that factor, gathered along the edges'
  sources, summed into the edges' targets, and the sums scaled row by row with the in-degrees' factor.  `agg₁` is the first
  layer's aggregation of the input features, `agg₂` the second layer's aggregation of the first layer's output.  Neither
  is ever opened here: both programs apply the same aggregation, so it is carried as one function of its arguments.
  Between and after them sits a dense step: `dense₁ X W b = max (X W + b, 0)` and `dense₂ X W b = X W + b`, the bias one
  row added to every row.  `result` is their composition, the function both programs compute.
-/
import proofs.«137935_j88665304858771_1_alg».proof.KernelIdeal
import proofs.«137935_j88665304858771_1_alg».proof.Proof.Gen.KernelIdeal
import proofs.«137935_j88665304858771_1_alg».proof.Proof.LibBiasRow

noncomputable section

namespace Cert.TwoLayer

open Idealize.ShloMosaic Cert.KernelIdeal Cert.KernelIdeal.Facts₀ Cert.Dense Cert.BiasRow

section Agg
variable {F : FTy → Type} [FloatOps F]

/-- The first layer's aggregation: 100000 source rows along 640000 edges into 20000 target rows, both degree
    normalisations applied. -/
def agg₁ (a0 : (⟨S100000x256, .f32⟩ : BufTy).Contents (Elt F)) (src dst : (⟨S640000, .i32⟩ : BufTy).Contents (Elt F)) :
    (⟨S20000x256, .f32⟩ : BufTy).Contents (Elt F) :=
  mulf
    (Host.scatterAdd scatter_S20000x256_S640000x1_S640000x256_1_0_0_1
      (broadcastInDim S20000x256 ![] bcast_S_S20000x256 (constant S_ .f32 0x00000000#32))
      (broadcastInDim S640000x1 ![0] bcast_S640000_S640000x1_0 dst)
      (Host.gather gather_S100000x256_S640000x1_S640000x256_1_0_n_n_0_1_1256
        (mulf a0
          (broadcastInDim S100000x256 ![0, 1] bcast_S100000x1_S100000x256_0_1
            (broadcastInDim S100000x1 ![0] bcast_S100000_S100000x1_0
              (Host.powf
                (maximumf (broadcastInDim S100000 ![] bcast_S_S100000 (id (constant S_ .f32 0x3F800000#32)))
                  (Host.scatterAdd scatter_S100000_S640000x1_S640000_n_0_0_1
                    (broadcastInDim S100000 ![] bcast_S_S100000 (constant S_ .f32 0x00000000#32))
                    (broadcastInDim S640000x1 ![0] bcast_S640000_S640000x1_0 src)
                    (broadcastInDim S640000 ![] bcast_S_S640000 (constant S_ .f32 0x3F800000#32))))
                (broadcastInDim S100000 ![] bcast_S_S100000 (constant S_ .f32 0xBF000000#32))))))
        (broadcastInDim S640000x1 ![0] bcast_S640000_S640000x1_0
          (select (cmpi .slt src (broadcastInDim S640000 ![] bcast_S_S640000 (constantI S_ 32 0#32)))
            (addi src (broadcastInDim S640000 ![] bcast_S_S640000 (constantI S_ 32 100000#32))) src))))
    (broadcastInDim S20000x256 ![0, 1] bcast_S20000x1_S20000x256_0_1
      (broadcastInDim S20000x1 ![0] bcast_S20000_S20000x1_0
        (Host.powf
          (maximumf (broadcastInDim S20000 ![] bcast_S_S20000 (id (constant S_ .f32 0x3F800000#32)))
            (Host.scatterAdd scatter_S20000_S640000x1_S640000_n_0_0_1
              (broadcastInDim S20000 ![] bcast_S_S20000 (constant S_ .f32 0x00000000#32))
              (broadcastInDim S640000x1 ![0] bcast_S640000_S640000x1_0 dst)
              (broadcastInDim S640000 ![] bcast_S_S640000 (constant S_ .f32 0x3F800000#32))))
          (broadcastInDim S20000 ![] bcast_S_S20000 (constant S_ .f32 0xBF000000#32)))))

/-- The second layer's aggregation: 20000 source rows along 131072 edges into 4096 target rows. -/
def agg₂ (x : (⟨S20000x256, .f32⟩ : BufTy).Contents (Elt F)) (src dst : (⟨S131072, .i32⟩ : BufTy).Contents (Elt F)) :
    (⟨S4096x256, .f32⟩ : BufTy).Contents (Elt F) :=
  mulf
    (Host.scatterAdd scatter_S4096x256_S131072x1_S131072x256_1_0_0_1
      (broadcastInDim S4096x256 ![] bcast_S_S4096x256 (constant S_ .f32 0x00000000#32))
      (broadcastInDim S131072x1 ![0] bcast_S131072_S131072x1_0 dst)
      (Host.gather gather_S20000x256_S131072x1_S131072x256_1_0_n_n_0_1_1256
        (mulf x
          (broadcastInDim S20000x256 ![0, 1] bcast_S20000x1_S20000x256_0_1
            (broadcastInDim S20000x1 ![0] bcast_S20000_S20000x1_0
              (Host.powf
                (maximumf (broadcastInDim S20000 ![] bcast_S_S20000 (id (constant S_ .f32 0x3F800000#32)))
                  (Host.scatterAdd scatter_S20000_S131072x1_S131072_n_0_0_1
                    (broadcastInDim S20000 ![] bcast_S_S20000 (constant S_ .f32 0x00000000#32))
                    (broadcastInDim S131072x1 ![0] bcast_S131072_S131072x1_0 src)
                    (broadcastInDim S131072 ![] bcast_S_S131072 (constant S_ .f32 0x3F800000#32))))
                (broadcastInDim S20000 ![] bcast_S_S20000 (constant S_ .f32 0xBF000000#32))))))
        (broadcastInDim S131072x1 ![0] bcast_S131072_S131072x1_0
          (select (cmpi .slt src (broadcastInDim S131072 ![] bcast_S_S131072 (constantI S_ 32 0#32)))
            (addi src (broadcastInDim S131072 ![] bcast_S_S131072 (constantI S_ 32 20000#32))) src))))
    (broadcastInDim S4096x256 ![0, 1] bcast_S4096x1_S4096x256_0_1
      (broadcastInDim S4096x1 ![0] bcast_S4096_S4096x1_0
        (Host.powf
          (maximumf (broadcastInDim S4096 ![] bcast_S_S4096 (id (constant S_ .f32 0x3F800000#32)))
            (Host.scatterAdd scatter_S4096_S131072x1_S131072_n_0_0_1
              (broadcastInDim S4096 ![] bcast_S_S4096 (constant S_ .f32 0x00000000#32))
              (broadcastInDim S131072x1 ![0] bcast_S131072_S131072x1_0 dst)
              (broadcastInDim S131072 ![] bcast_S_S131072 (constant S_ .f32 0x3F800000#32))))
          (broadcastInDim S4096 ![] bcast_S_S4096 (constant S_ .f32 0xBF000000#32)))))

end Agg

/-- The first dense step: the product with the weights, the bias row added to every row, rectified. -/
def dense₁ {M K N : ℕ} (X : Mat M K) (W : Mat K N) (b : Row N) : Mat M N := reluBias (mm X W) (row b)

/-- The second dense step: the product with the weights, the bias row added to every row. -/
def dense₂ {M K N : ℕ} (X : Mat M K) (W : Mat K N) (b : Row N) : Mat M N := addRow (mm X W) (row b)

/-- What both programs compute from the nine arguments. -/
def result (a0 : Mat 100000 256) (w1 : Mat 256 256) (b1 : Row 256) (w2 : Mat 256 128) (b2 : Row 128)
    (src0 dst0 : (⟨S640000, .i32⟩ : BufTy).Contents (Elt Ideal)) (src1 dst1 : (⟨S131072, .i32⟩ : BufTy).Contents (Elt Ideal)) :
    Mat 4096 128 :=
  dense₂ (agg₂ (F := Ideal) (dense₁ (agg₁ (F := Ideal) a0 src0 dst0) w1 b1) src1 dst1) w2 b2

end Cert.TwoLayer

end
-- ==== Proof.HostLines.lean ====
/-
  The two lines of host operations of the kernel's program, read from any buffer contents.

  The first line, run from contents `W`, leaves in the buffer the first dense step reads the first aggregation `agg₁` of the
  feature array and the first graph's edge lists as `W` holds them; the second line leaves in the buffer the second dense
  step reads the second aggregation `agg₂` of the first step's output array and the second graph's edge lists.  Neither line
  writes an argument array.  Each line is printed as five consecutive stretches; the contents after a stretch are the
  next stretch's start.
-/
import proofs.«137935_j88665304858771_1_alg».proof.Proof.Gen.KernelIdeal.Launch
import proofs.«137935_j88665304858771_1_alg».proof.Proof.Spec
import Idealize.ShloMosaic.Lib.StableHlo.Run

set_option maxRecDepth 16384

noncomputable section

namespace Cert.TwoLayer

open Idealize.ShloMosaic Idealize.ShloMosaic.TcCoe Idealize.SL.Sem Idealize.ShloMosaic.StableHlo
open Cert.KernelIdeal Cert.KernelIdeal.Gen

variable {F : FTy → Type} [FloatOps F]

/-- The contents after the first line's five stretches. -/
abbrev line₁ (W : Valuation τ sig (Elt F)) : Valuation τ sig (Elt F) :=
  after hostOps0_4 (after hostOps0_3 (after hostOps0_2 (after hostOps0_1 (after hostOps0 W))))

/-- The contents after the second line's five stretches. -/
abbrev line₂ (W : Valuation τ sig (Elt F)) : Valuation τ sig (Elt F) :=
  after hostOps1_4 (after hostOps1_3 (after hostOps1_2 (after hostOps1_1 (after hostOps1 W))))

set_option maxHeartbeats 4000000 in
/-- The first line computes the first aggregation. -/
theorem line₁_agg (W : Valuation τ sig (Elt F)) :
    line₁ W (Proc.devRef .tc main_v28)
      = agg₁ (W (Proc.devRef .tc main_arg0)) (W (Proc.devRef .tc main_arg5)) (W (Proc.devRef .tc main_arg6)) := by
  unfold line₁
  after_results_simp
  rfl

set_option maxHeartbeats 4000000 in
/-- The second line computes the second aggregation. -/
theorem line₂_agg (W : Valuation τ sig (Elt F)) :
    line₂ W (Proc.devRef .tc main_v58)
      = agg₂ (W (Proc.devRef .tc main_v29)) (W (Proc.devRef .tc main_arg7)) (W (Proc.devRef .tc main_arg8)) := by
  unfold line₂
  after_results_simp
  rfl

set_option maxHeartbeats 4000000 in
/-- The first line leaves the weights, the biases and the second graph's edge lists as they were. -/
theorem line₁_keeps (W : Valuation τ sig (Elt F)) :
    line₁ W (Proc.devRef .tc main_arg1) = W (Proc.devRef .tc main_arg1)
    ∧ line₁ W (Proc.devRef .tc main_arg2) = W (Proc.devRef .tc main_arg2)
    ∧ line₁ W (Proc.devRef .tc main_arg3) = W (Proc.devRef .tc main_arg3)
    ∧ line₁ W (Proc.devRef .tc main_arg4) = W (Proc.devRef .tc main_arg4)
    ∧ line₁ W (Proc.devRef .tc main_arg7) = W (Proc.devRef .tc main_arg7)
    ∧ line₁ W (Proc.devRef .tc main_arg8) = W (Proc.devRef .tc main_arg8) := by
  unfold line₁
  refine ⟨?_, ?_, ?_, ?_, ?_, ?_⟩ <;> after_results_simp

set_option maxHeartbeats 4000000 in
/-- The second line leaves the second weights and bias as they were. -/
theorem line₂_keeps (W : Valuation τ sig (Elt F)) :
    line₂ W (Proc.devRef .tc main_arg3) = W (Proc.devRef .tc main_arg3)
    ∧ line₂ W (Proc.devRef .tc main_arg4) = W (Proc.devRef .tc main_arg4) := by
  unfold line₂
  refine ⟨?_, ?_⟩ <;> after_results_simp

end Cert.TwoLayer

end
-- ==== Proof.Body.lean ====
/-
  What one grid point of each dense step stores, at the extended reals.

  A point of the first step loads a block of rows, the whole weight matrix and the bias vector, and stores
  `max (rows · W + b, 0)`; a point of the second stores `rows · W + b`.  Rounding the operands to a shorter format is the
  identity on the extended reals, a cast to the same shape is the identity, the matrix unit's product into a zero
  accumulator is the matrix product, and the bias, cast to one row and broadcast along the rows, is added to every row.
-/
import proofs.«137935_j88665304858771_1_alg».proof.Proof.Gen.KernelIdeal.Skeleton
import proofs.«137935_j88665304858771_1_alg».proof.Proof.Spec

noncomputable section

namespace Cert.TwoLayer

open Idealize.ShloMosaic Cert.KernelIdeal Cert.KernelIdeal.Gen Cert.KernelIdeal.Facts₀ Cert.Dense Cert.BiasRow

/-- The first step's stored block is the rectified dense step of the loaded blocks. -/
theorem pay₁ (x0 : Vec Ideal S2000x256 .f32) (x1 : Vec Ideal S256x256 .f32) (x2 : Vec Ideal S256 .f32) :
    k0_pay1 (F := Ideal) x0 x1 x2 = dense₁ x0 x1 x2 := by
  unfold k0_pay1 dense₁
  dsimp only
  rw [shapeCast_self]
  show maximumf (addf (matmul (F := Ideal) dot_S2000x256_S256x256_S2000x256_1_0_0_1_n_n none x0 x1
      (constant S2000x256 .f32 0x00000000#32))
        (broadcastTo S2000x256 (shapeCast S1x256 x2 Facts₀.shapeCasts_S256_S1x256) Facts₀.broadcasts_S1x256_S2000x256))
      (broadcast S2000x256 (Scalar.ofBits (F := Ideal) .f32 0x00000000#32)) = _
  rw [matmul_zero_eq_mm dot_S2000x256_S256x256_S2000x256_1_0_0_1_n_n rfl rfl rfl rfl rfl rfl, shapeCast_row, vecReluBias]

/-- The second step's stored block is the dense step of the loaded blocks. -/
theorem pay₂ (x0 : Vec Ideal S1024x256 .f32) (x1 : Vec Ideal S256x128 .f32) (x2 : Vec Ideal S128 .f32) :
    k1_pay1 (F := Ideal) x0 x1 x2 = dense₂ x0 x1 x2 := by
  unfold k1_pay1 dense₂
  dsimp only
  rw [shapeCast_self]
  show addf (matmul (F := Ideal) dot_S1024x256_S256x128_S1024x128_1_0_0_1_n_n none x0 x1
      (constant S1024x128 .f32 0x00000000#32))
        (broadcastTo S1024x128 (shapeCast S1x128 x2 Facts₀.shapeCasts_S128_S1x128) Facts₀.broadcasts_S1x128_S1024x128) = _
  rw [matmul_zero_eq_mm dot_S1024x256_S256x128_S1024x128_1_0_0_1_n_n rfl rfl rfl rfl rfl rfl, shapeCast_row, vecAddRow]

end Cert.TwoLayer

end
-- ==== Proof.Step0.lean ====
/-
  The first dense step's output array after its pipelined run, from any contents `V` the step is entered at.

  The grid has 10 points; point `t` reads rows `2000 t … 2000 t + 1999` of the input array, the whole weight matrix and the
  whole bias vector, and writes back rows `2000 t … 2000 t + 1999` of the output array.  A row of the dense step depends on
  the same row of its input only, so what point `t` writes back is block `t` of the dense step of the whole input array;
  the 10 blocks cover the output array, which therefore ends holding the dense step of the input array.
-/
import proofs.«137935_j88665304858771_1_alg».proof.Proof.Gen.KernelIdeal.Frame
import proofs.«137935_j88665304858771_1_alg».proof.Proof.Body
import Idealize.ShloMosaic.Lib.Pipeline.Value

set_option maxRecDepth 16384

noncomputable section

namespace Cert.TwoLayer.Step0

open Idealize.ShloMosaic Idealize.ShloMosaic.TcCoe Idealize.ShloMosaic.ValueIdx Idealize.SL.Sem
open Idealize.ShloMosaic.Pipeline (Dat)
open Cert.KernelIdeal Cert.KernelIdeal.Gen Cert.Dense Cert.BiasRow Cert.TwoLayer

/-- An entry of the dense step depends on one row of the input, one column of the weights and one entry of the bias. -/
theorem dense_at {M M' K N : ℕ} (X : Mat M K) (W : Mat K N) (b : Row N) (X' : Mat M' K) (W' : Mat K N) (b' : Row N)
    (j : (⟨2, ![M', N]⟩ : Shape).Idx) (i : (⟨2, ![M, N]⟩ : Shape).Idx)
    (hX : ∀ k : Fin K, X' (ix2 (c0 j) k) = X (ix2 (c0 i) k))
    (hW : ∀ k : Fin K, W' (ix2 k (c1 j)) = W (ix2 k (c1 i)))
    (hb : row b' (ix2 (0 : Fin 1) (c1 j)) = row b (ix2 (0 : Fin 1) (c1 i))) :
    dense₁ X' W' b' j = dense₁ X W b i :=
  reluBias_at _ _ _ _ j i (mm_at X W X' W' j i hX hW) hb

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the input and output windows sit at block row `t`, column block 0; the weights'
    and the bias's windows at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- What point `t` writes back is block `t` of the dense step of the arrays as the step finds them. -/
theorem flushed_eq (c : Dev nD) (t : Fin cfg0.N) :
    (dat0 V c).flushed 3 t = ((cfg0.win 3).blk t).view.read (Elt Ideal)
      (dense₁ (V c main_v28) (V c main_arg1) (V c main_arg2)) := by
  show (cfg0.win 3).cut (grid0.coords t) ((dat0 V c).after 3 t) = _
  rw [after0_3]
  unfold out0_3
  rw [View.canon_unit_zero hz2]
  simp only [View.ld_unit_zero (S := S2000x256) hz2, View.ld_unit_zero (S := S256x256) hz2, View.ld_unit_zero (S := S256) hz1]
  rw [pay₁]
  obtain ⟨e0, e1, e2, e3, e4, e5, e6⟩ := idx_facts t
  funext j
  show dense₁ (iblk0 V c 0 t) (iblk0 V c 1 t) (iblk0 V c 2 t) ((win0 3).xinj (grid0.coords t) j)
    = dense₁ (V c main_v28) (V c main_arg1) (V c main_arg2) (((cfg0.win 3).blk t).view.emb j)
  refine dense_at (V c main_v28) (V c main_arg1) (V c main_arg2) (iblk0 V c 0 t) (iblk0 V c 1 t) (iblk0 V c 2 t)
    ((win0 3).xinj (grid0.coords t) j) (((cfg0.win 3).blk t).view.emb j) (fun k => ?_) (fun k => ?_) ?_
  · show V c main_v28 (((cfg0.win 0).blk t).view.emb (ix2 (c0 ((win0 3).xinj (grid0.coords t) j)) k)) = _
    refine congrArg (V c main_v28) (funext fun a => Fin.ext ?_)
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 256 + 1 * k.val = k.val; omega
  · show V c main_arg1 (((cfg0.win 1).blk t).view.emb (ix2 k (c1 ((win0 3).xinj (grid0.coords t) j)))) = _
    refine congrArg (V c main_arg1) (funext fun a => Fin.ext ?_)
    match a with
    | ⟨0, _⟩ => show win0_1.index t (0 : Fin 2) * 256 + 1 * k.val = k.val; omega
    | ⟨1, _⟩ => show win0_1.index t (1 : Fin 2) * 256 + 1 * (j 1).val = win0_3.index t (1 : Fin 2) * 256 + 1 * (j 1).val; omega
  · show V c main_arg2 (((cfg0.win 2).blk t).view.emb (ix1 (c1 ((win0 3).xinj (grid0.coords t) j)))) = _
    refine congrArg (V c main_arg2) (funext fun a => Fin.ext ?_)
    match a with
    | ⟨0, _⟩ => show win0_2.index t (0 : Fin 1) * 256 + 1 * (j 1).val = win0_3.index t (1 : Fin 2) * 256 + 1 * (j 1).val; omega

/-- An index of the output array is in point `t`'s block iff each coordinate is in the block's range on its axis. -/
theorem mem_blk (t : Fin cfg0.N) (i : S20000x256.Idx) :
    i ∈ ((cfg0.win 3).blk t).view.set ↔ ∀ a : Fin 2, win0_3.index t a * S2000x256.size a ≤ (i a).val
      ∧ (i a).val < win0_3.index t a * S2000x256.size a + S2000x256.size a := by
  show i ∈ ((View.whole main_v29).slice (win0_3.rect t)).set ↔ _
  rw [View.set_slice_whole, Rect.mem_set_unit]
  exact Iff.rfl

/-- Row `r` of the output array is in the block of point `r / 2000`. -/
theorem cover (i : S20000x256.Idx) :
    ∃ t : Fin cfg0.N, (cfg0.win 3).flush t = true ∧ i ∈ ((cfg0.win 3).blk t).view.set := by
  have hi0 : (i 0).val < 20000 := (i 0).isLt
  have hi1 : (i 1).val < 256 := (i 1).isLt
  have hN : cfg0.N = 10 := N_0
  refine ⟨⟨(i 0).val / 2000, by rw [hN]; omega⟩, flush0_3 _, ?_⟩
  obtain ⟨e0, e1, e2, e3, e4, e5, e6⟩ := idx_facts ⟨(i 0).val / 2000, by rw [hN]; omega⟩
  rw [mem_blk]
  intro a
  match a with
  | ⟨0, _⟩ =>
    show win0_3.index _ (0 : Fin 2) * 2000 ≤ (i 0).val ∧ (i 0).val < win0_3.index _ (0 : Fin 2) * 2000 + 2000
    rw [e5]; show (i 0).val / 2000 * 2000 ≤ (i 0).val ∧ (i 0).val < (i 0).val / 2000 * 2000 + 2000; omega
  | ⟨1, _⟩ =>
    show win0_3.index _ (1 : Fin 2) * 256 ≤ (i 1).val ∧ (i 1).val < win0_3.index _ (1 : Fin 2) * 256 + 256
    rw [e6]; omega

/-- The output array after the run is the dense step of the arrays as the step finds them. -/
theorem final (c : Dev nD) :
    (dat0 V c).arrAt 3 cfg0.N = dense₁ (V c main_v28) (V c main_arg1) (V c main_arg2) :=
  (dat0 V c).arrAt_eq_of_cover 3 (dense₁ (V c main_v28) (V c main_arg1) (V c main_arg2)) (fun t _ => flushed_eq V c t) cover

end Cert.TwoLayer.Step0

end
-- ==== Proof.Step1.lean ====
/-
  The second dense step's output array after its pipelined run, from any contents `V` the step is entered at.

  The grid has 4 points; point `t` reads rows `1024 t … 1024 t + 1023` of the input array, the whole weight matrix and the
  whole bias vector, and writes back rows `1024 t … 1024 t + 1023` of the output array.  A row of the dense step depends on
  the same row of its input only, so what point `t` writes back is block `t` of the dense step of the whole input array;
  the 4 blocks cover the output array, which therefore ends holding the dense step of the input array.
-/
import proofs.«137935_j88665304858771_1_alg».proof.Proof.Gen.KernelIdeal.Frame
import proofs.«137935_j88665304858771_1_alg».proof.Proof.Body
import Idealize.ShloMosaic.Lib.Pipeline.Value

set_option maxRecDepth 16384

noncomputable section

namespace Cert.TwoLayer.Step1

open Idealize.ShloMosaic Idealize.ShloMosaic.TcCoe Idealize.ShloMosaic.ValueIdx Idealize.SL.Sem
open Idealize.ShloMosaic.Pipeline (Dat)
open Cert.KernelIdeal Cert.KernelIdeal.Gen Cert.Dense Cert.BiasRow Cert.TwoLayer

/-- An entry of the dense step depends on one row of the input, one column of the weights and one entry of the bias. -/
theorem dense_at {M M' K N : ℕ} (X : Mat M K) (W : Mat K N) (b : Row N) (X' : Mat M' K) (W' : Mat K N) (b' : Row N)
    (j : (⟨2, ![M', N]⟩ : Shape).Idx) (i : (⟨2, ![M, N]⟩ : Shape).Idx)
    (hX : ∀ k : Fin K, X' (ix2 (c0 j) k) = X (ix2 (c0 i) k))
    (hW : ∀ k : Fin K, W' (ix2 k (c1 j)) = W (ix2 k (c1 i)))
    (hb : row b' (ix2 (0 : Fin 1) (c1 j)) = row b (ix2 (0 : Fin 1) (c1 i))) :
    dense₂ X' W' b' j = dense₂ X W b i :=
  addRow_at _ _ _ _ j i (mm_at X W X' W' j i hX hW) hb

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the input and output windows sit at block row `t`, column block 0; the weights'
    and the bias's windows at block 0. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What point `t` writes back is block `t` of the dense step of the arrays as the step finds them. -/
theorem flushed_eq (c : Dev nD) (t : Fin cfg1.N) :
    (dat1 V c).flushed 3 t = ((cfg1.win 3).blk t).view.read (Elt Ideal)
      (dense₂ (V c main_v58) (V c main_arg3) (V c main_arg4)) := by
  show (cfg1.win 3).cut (grid1.coords t) ((dat1 V c).after 3 t) = _
  rw [after1_3]
  unfold out1_3
  rw [View.canon_unit_zero hz2]
  simp only [View.ld_unit_zero (S := S1024x256) hz2, View.ld_unit_zero (S := S256x128) hz2, View.ld_unit_zero (S := S128) hz1]
  rw [pay₂]
  obtain ⟨e0, e1, e2, e3, e4, e5, e6⟩ := idx_facts t
  funext j
  show dense₂ (iblk1 V c 0 t) (iblk1 V c 1 t) (iblk1 V c 2 t) ((win1 3).xinj (grid1.coords t) j)
    = dense₂ (V c main_v58) (V c main_arg3) (V c main_arg4) (((cfg1.win 3).blk t).view.emb j)
  refine dense_at (V c main_v58) (V c main_arg3) (V c main_arg4) (iblk1 V c 0 t) (iblk1 V c 1 t) (iblk1 V c 2 t)
    ((win1 3).xinj (grid1.coords t) j) (((cfg1.win 3).blk t).view.emb j) (fun k => ?_) (fun k => ?_) ?_
  · show V c main_v58 (((cfg1.win 0).blk t).view.emb (ix2 (c0 ((win1 3).xinj (grid1.coords t) j)) k)) = _
    refine congrArg (V c main_v58) (funext fun a => Fin.ext ?_)
    match a with
    | ⟨0, _⟩ => show win1_0.index t (0 : Fin 2) * 1024 + 1 * (j 0).val = win1_3.index t (0 : Fin 2) * 1024 + 1 * (j 0).val; omega
    | ⟨1, _⟩ => show win1_0.index t (1 : Fin 2) * 256 + 1 * k.val = k.val; omega
  · show V c main_arg3 (((cfg1.win 1).blk t).view.emb (ix2 k (c1 ((win1 3).xinj (grid1.coords t) j)))) = _
    refine congrArg (V c main_arg3) (funext fun a => Fin.ext ?_)
    match a with
    | ⟨0, _⟩ => show win1_1.index t (0 : Fin 2) * 256 + 1 * k.val = k.val; omega
    | ⟨1, _⟩ => show win1_1.index t (1 : Fin 2) * 128 + 1 * (j 1).val = win1_3.index t (1 : Fin 2) * 128 + 1 * (j 1).val; omega
  · show V c main_arg4 (((cfg1.win 2).blk t).view.emb (ix1 (c1 ((win1 3).xinj (grid1.coords t) j)))) = _
    refine congrArg (V c main_arg4) (funext fun a => Fin.ext ?_)
    match a with
    | ⟨0, _⟩ => show win1_2.index t (0 : Fin 1) * 128 + 1 * (j 1).val = win1_3.index t (1 : Fin 2) * 128 + 1 * (j 1).val; omega

/-- An index of the output array is in point `t`'s block iff each coordinate is in the block's range on its axis. -/
theorem mem_blk (t : Fin cfg1.N) (i : S4096x128.Idx) :
    i ∈ ((cfg1.win 3).blk t).view.set ↔ ∀ a : Fin 2, win1_3.index t a * S1024x128.size a ≤ (i a).val
      ∧ (i a).val < win1_3.index t a * S1024x128.size a + S1024x128.size a := by
  show i ∈ ((View.whole main_v59).slice (win1_3.rect t)).set ↔ _
  rw [View.set_slice_whole, Rect.mem_set_unit]
  exact Iff.rfl

/-- Row `r` of the output array is in the block of point `r / 1024`. -/
theorem cover (i : S4096x128.Idx) :
    ∃ t : Fin cfg1.N, (cfg1.win 3).flush t = true ∧ i ∈ ((cfg1.win 3).blk t).view.set := by
  have hi0 : (i 0).val < 4096 := (i 0).isLt
  have hi1 : (i 1).val < 128 := (i 1).isLt
  have hN : cfg1.N = 4 := N_1
  refine ⟨⟨(i 0).val / 1024, by rw [hN]; omega⟩, flush1_3 _, ?_⟩
  obtain ⟨e0, e1, e2, e3, e4, e5, e6⟩ := idx_facts ⟨(i 0).val / 1024, by rw [hN]; omega⟩
  rw [mem_blk]
  intro a
  match a with
  | ⟨0, _⟩ =>
    show win1_3.index _ (0 : Fin 2) * 1024 ≤ (i 0).val ∧ (i 0).val < win1_3.index _ (0 : Fin 2) * 1024 + 1024
    rw [e5]; show (i 0).val / 1024 * 1024 ≤ (i 0).val ∧ (i 0).val < (i 0).val / 1024 * 1024 + 1024; omega
  | ⟨1, _⟩ =>
    show win1_3.index _ (1 : Fin 2) * 128 ≤ (i 1).val ∧ (i 1).val < win1_3.index _ (1 : Fin 2) * 128 + 128
    rw [e6]; omega

/-- The output array after the run is the dense step of the arrays as the step finds them. -/
theorem final (c : Dev nD) :
    (dat1 V c).arrAt 3 cfg1.N = dense₂ (V c main_v58) (V c main_arg3) (V c main_arg4) :=
  (dat1 V c).arrAt_eq_of_cover 3 (dense₂ (V c main_v58) (V c main_arg3) (V c main_arg4)) (fun t _ => flushed_eq V c t) cover

end Cert.TwoLayer.Step1

end
-- ==== Proof.Chain.lean ====
/-
  The result array's contents at the last boundary are `result` of the arguments' launch contents.

  Following the buffers from the launch memory: the first host line computes the first aggregation of the feature array;
  the first dense step leaves `dense₁` of it, of the first weights and of the first bias in its output array and every other
  buffer as it was; the second host line computes the second aggregation of that array; the second dense step leaves
  `dense₂` of it, of the second weights and of the second bias in the result array.  No host line and no step writes an
  argument, so every read of an argument along the way is a read of the launch memory.
-/
import proofs.«137935_j88665304858771_1_alg».proof.Proof.Gen.KernelIdeal.Frame
import proofs.«137935_j88665304858771_1_alg».proof.Proof.HostLines
import proofs.«137935_j88665304858771_1_alg».proof.Proof.Step0
import proofs.«137935_j88665304858771_1_alg».proof.Proof.Step1

set_option maxRecDepth 16384

noncomputable section

namespace Cert.TwoLayer

open Idealize.ShloMosaic Idealize.ShloMosaic.TcCoe Idealize.SL.Sem
open Cert.KernelIdeal Cert.KernelIdeal.Gen Cert.Dense Cert.BiasRow

variable (m : (ℓ : Loc nD τ sig) → Buf (Elt Ideal) ℓ) (ρ : Dev nD → PrngReg)

/-- At the first dense step's entry its input array holds the first aggregation, its weights and bias the launch
    contents; so do the second step's weights and bias and the second graph's edge lists. -/
theorem entry₁ (c : Dev nD) :
    V5 m ρ c main_v28 = agg₁ (m ((c.tc : Thread nD τ).loc main_arg0)) (m ((c.tc : Thread nD τ).loc main_arg5))
        (m ((c.tc : Thread nD τ).loc main_arg6))
    ∧ V5 m ρ c main_arg1 = m ((c.tc : Thread nD τ).loc main_arg1)
    ∧ V5 m ρ c main_arg2 = m ((c.tc : Thread nD τ).loc main_arg2)
    ∧ V5 m ρ c main_arg3 = m ((c.tc : Thread nD τ).loc main_arg3)
    ∧ V5 m ρ c main_arg4 = m ((c.tc : Thread nD τ).loc main_arg4)
    ∧ V5 m ρ c main_arg7 = m ((c.tc : Thread nD τ).loc main_arg7)
    ∧ V5 m ρ c main_arg8 = m ((c.tc : Thread nD τ).loc main_arg8) :=
  ⟨line₁_agg (W0 m ρ c), line₁_keeps (W0 m ρ c)⟩

/-- At the first dense step's exit its output array holds `dense₁` of the first aggregation. -/
theorem exit₁ (c : Dev nD) :
    W6 m ρ c (Proc.devRef .tc main_v29)
      = dense₁ (agg₁ (m ((c.tc : Thread nD τ).loc main_arg0)) (m ((c.tc : Thread nD τ).loc main_arg5))
          (m ((c.tc : Thread nD τ).loc main_arg6))) (m ((c.tc : Thread nD τ).loc main_arg1)) (m ((c.tc : Thread nD τ).loc main_arg2)) := by
  obtain ⟨h28, h1, h2, -⟩ := entry₁ m ρ c
  refine (W6_arr m ρ c 3).trans ((Step0.final (V5 m ρ) c).trans ?_)
  rw [h28, h1, h2]

/-- The first dense step leaves the later arguments as it found them. -/
theorem exit₁_keeps (c : Dev nD) :
    W6 m ρ c (Proc.devRef .tc main_arg3) = m ((c.tc : Thread nD τ).loc main_arg3)
    ∧ W6 m ρ c (Proc.devRef .tc main_arg4) = m ((c.tc : Thread nD τ).loc main_arg4)
    ∧ W6 m ρ c (Proc.devRef .tc main_arg7) = m ((c.tc : Thread nD τ).loc main_arg7)
    ∧ W6 m ρ c (Proc.devRef .tc main_arg8) = m ((c.tc : Thread nD τ).loc main_arg8) := by
  obtain ⟨-, -, -, h3, h4, h7, h8⟩ := entry₁ m ρ c
  exact ⟨(W6_of_ne m ρ c main_arg3 (by decide)).trans h3, (W6_of_ne m ρ c main_arg4 (by decide)).trans h4,
    (W6_of_ne m ρ c main_arg7 (by decide)).trans h7, (W6_of_ne m ρ c main_arg8 (by decide)).trans h8⟩

/-- The result array at the last boundary. -/
theorem last (c : Dev nD) :
    W12 m ρ c (Proc.devRef .tc main_v59)
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  obtain ⟨k3, k4, k7, k8⟩ := exit₁_keeps m ρ c
  have h58 : V11 m ρ c main_v58 = agg₂ (W6 m ρ c (Proc.devRef .tc main_v29)) (W6 m ρ c (Proc.devRef .tc main_arg7))
      (W6 m ρ c (Proc.devRef .tc main_arg8)) := line₂_agg (W6 m ρ c)
  have h3 : V11 m ρ c main_arg3 = W6 m ρ c (Proc.devRef .tc main_arg3) := (line₂_keeps (W6 m ρ c)).1
  have h4 : V11 m ρ c main_arg4 = W6 m ρ c (Proc.devRef .tc main_arg4) := (line₂_keeps (W6 m ρ c)).2
  refine (W12_arr m ρ c 3).trans ((Step1.final (V11 m ρ) c).trans ?_)
  rw [h58, h3, h4, exit₁ m ρ c, k3, k4, k7, k8]
  rfl

end Cert.TwoLayer

end
-- ==== Proof.RefIsResult.lean ====
/-
  The reference computes `result`.

  The reference's run leaves in its result array one composed term of the launch contents of its arguments: the first
  aggregation, the host's dot product with the first weights, the first bias broadcast to one row and then to every row
  and added, the maximum with a broadcast zero, the second aggregation, the host's dot product with the second weights and
  the second bias added the same way.  The two aggregations are the same operations the kernel's program applies, so the
  term is `hostForm` of the arguments with both aggregations kept closed; and the host's dot product is the matrix product,
  its two-step bias broadcast the one-row bias added to every row.
-/
import proofs.«137935_j88665304858771_1_alg».proof.Proof.Gen.ReferenceIdeal.Run
import proofs.«137935_j88665304858771_1_alg».proof.Proof.Spec

noncomputable section

namespace Cert.TwoLayer

open Idealize.ShloMosaic Idealize.ShloMosaic.TcCoe Idealize.SL.Sem Cert.Dense Cert.BiasRow

/-- The reference's spelling of the two dense steps around the closed aggregations. -/
def hostForm (a0 : Mat 100000 256) (w1 : Mat 256 256) (b1 : Row 256) (w2 : Mat 256 128) (b2 : Row 128)
    (src0 dst0 : (⟨Cert.KernelIdeal.S640000, .i32⟩ : BufTy).Contents (Elt Ideal))
    (src1 dst1 : (⟨Cert.KernelIdeal.S131072, .i32⟩ : BufTy).Contents (Elt Ideal)) : Mat 4096 128 :=
  addf
    (Host.dotGeneral (F := Ideal) (φ₁ := .f32) (φ₂ := .f32) Cert.ReferenceIdeal.dot_S4096x256_S256x128_S4096x128_1_0_0_1_n_n none
      (agg₂ (F := Ideal)
        (maximumf
          (addf
            (Host.dotGeneral (F := Ideal) (φ₁ := .f32) (φ₂ := .f32) Cert.ReferenceIdeal.dot_S20000x256_S256x256_S20000x256_1_0_0_1_n_n none
              (agg₁ (F := Ideal) a0 src0 dst0) w1)
            (broadcastInDim Cert.ReferenceIdeal.S20000x256 ![0, 1] Cert.ReferenceIdeal.Facts₀.bcast_S1x256_S20000x256_0_1
              (broadcastInDim Cert.ReferenceIdeal.S1x256 ![1] Cert.ReferenceIdeal.Facts₀.bcast_S256_S1x256_1 b1)))
          (broadcastInDim Cert.ReferenceIdeal.S20000x256 ![] Cert.ReferenceIdeal.Facts₀.bcast_S_S20000x256
            (constant (F := Ideal) Cert.ReferenceIdeal.S_ .f32 0x00000000#32)))
        src1 dst1)
      w2)
    (broadcastInDim Cert.ReferenceIdeal.S4096x128 ![0, 1] Cert.ReferenceIdeal.Facts₀.bcast_S1x128_S4096x128_0_1
      (broadcastInDim Cert.ReferenceIdeal.S1x128 ![1] Cert.ReferenceIdeal.Facts₀.bcast_S128_S1x128_1 b2))

/-- The host's dot products are matrix products and its bias broadcasts add one row to every row. -/
theorem hostForm_eq (a0 : Mat 100000 256) (w1 : Mat 256 256) (b1 : Row 256) (w2 : Mat 256 128) (b2 : Row 128)
    (src0 dst0 : (⟨Cert.KernelIdeal.S640000, .i32⟩ : BufTy).Contents (Elt Ideal))
    (src1 dst1 : (⟨Cert.KernelIdeal.S131072, .i32⟩ : BufTy).Contents (Elt Ideal)) :
    hostForm a0 w1 b1 w2 b2 src0 dst0 src1 dst1 = result a0 w1 b1 w2 b2 src0 dst0 src1 dst1 := by
  unfold hostForm result dense₁ dense₂
  rw [hostDot_eq_mm (φ₁ := .f32) (φ₂ := .f32) Cert.ReferenceIdeal.dot_S20000x256_S256x256_S20000x256_1_0_0_1_n_n rfl rfl rfl rfl rfl rfl,
    hostReluBias,
    hostDot_eq_mm (φ₁ := .f32) (φ₂ := .f32) Cert.ReferenceIdeal.dot_S4096x256_S256x128_S4096x128_1_0_0_1_n_n rfl rfl rfl rfl rfl rfl,
    hostAddRow]

/-- The reference run's result term is `hostForm` of the arguments' launch contents. -/
theorem ref_term (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v66 (F := Ideal) m c
      = hostForm (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7))
          (m ((c.tc : Thread Cert.ReferenceIdeal.nD Cert.ReferenceIdeal.τ).loc Cert.ReferenceIdeal.main_arg8)) := by
  unfold Cert.ReferenceIdeal.Value.res_main_v66 hostForm agg₁ agg₂
  rfl

end Cert.TwoLayer

end
-- ==== Proof.lean ====
/-
  Two graph-convolution layers: a kernel program whose two dense steps run as pipelined kernels, against a reference that
  computes them with dot products on the host.

  Both programs aggregate each layer's input along the graph's edges with the same host operations (degree counts by
  accumulating scatters, a clip, a power, a gather and a segment sum), and both then apply a dense step.  The kernel's
  dense steps round their operands to a shorter float format before the matrix unit's product; on the extended reals that
  rounding is the identity, the matrix unit's product into a zero accumulator is the matrix product, and a bias cast to one
  row and broadcast along the rows is that row added to every row — exactly what the host's dot product and two-step
  broadcast compute.  A row of a dense step depends on the same row of its input only, so the blocks of rows the grid points
  write back tile the whole-array dense step.  Hence both programs end with `Cert.TwoLayer.result` of the arguments in their
  result arrays; no step uses finiteness of the inputs, only commutation of the same operations, so the precondition is
  never opened.  The rewriting pass changed no operation, so the kernel's idealization is its own text.
-/
import proofs.«137935_j88665304858771_1_alg».proof.Defs
import proofs.«137935_j88665304858771_1_alg».proof.Proof.Gen.Kernel
import proofs.«137935_j88665304858771_1_alg».proof.Proof.Gen.Kernel.Frame
import proofs.«137935_j88665304858771_1_alg».proof.Proof.Gen.KernelIdeal
import proofs.«137935_j88665304858771_1_alg».proof.Proof.Gen.KernelIdeal.Frame
import proofs.«137935_j88665304858771_1_alg».proof.Proof.Gen.ReferenceIdeal
import proofs.«137935_j88665304858771_1_alg».proof.Proof.Gen.ReferenceIdeal.Run
import proofs.«137935_j88665304858771_1_alg».proof.Proof.Gen.Pre_finite_inputs
import proofs.«137935_j88665304858771_1_alg».proof.Proof.KernelRun
import proofs.«137935_j88665304858771_1_alg».proof.Proof.Chain
import proofs.«137935_j88665304858771_1_alg».proof.Proof.RefIsResult

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel's result array ends at `result` of its arguments (the named run and the boundary-by-boundary reading); the
    reference's at its composed term, which is `result` of its arguments; the arguments agree. -/
theorem algebraic : Cert.algebraic_KernelIdeal_ReferenceIdeal := by
  intro m ρ m' ρ' _ hagree
  refine ⟨fun c => Cert.TwoLayer.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono (fun _ h c => ⟨(h c).1.trans (Cert.TwoLayer.last m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨g0, g1, g2, g3, g4, g5, g6, g7, g8⟩ := hagree c
    rw [Cert.TwoLayer.ref_term, Cert.TwoLayer.hostForm_eq, g0, g1, g2, g3, g4, g5, g6, g7, g8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
